-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x116250x128 : Shape := ⟨4, ![1, 1, 116250, 128]⟩
abbrev S64x1x1x128 : Shape := ⟨4, ![64, 1, 1, 128]⟩
abbrev S_ : Shape := ⟨0, ![]⟩

class Facts : Prop where
  bcast_S_S1x1x116250x128 : S_.BroadcastsInDim S1x1x116250x128 (![] : Fin 0 → Fin S1x1x116250x128.rank)
  reducesTo_S1x1x116250x128_S_d0_1_2_3 : S1x1x116250x128.ReducesTo [0, 1, 2, 3] S_
  h_S_ : 0 < S_.numel
  bcast_S_S64x1x1x128 : S_.BroadcastsInDim S64x1x1x128 (![] : Fin 0 → Fin S64x1x1x128.rank)
  reducesTo_S64x1x1x128_S_d0_1_2_3 : S64x1x1x128.ReducesTo [0, 1, 2, 3] S_

variable [Facts]

def fn {F : FTy → Type} [FloatOps F] (main_arg0 : FVec F S1x1x116250x128 .f32) (main_arg1 : FVec F S64x1x1x128 .f32) : IVec S_ 1 :=
  let main_v0 : FVec F S1x1x116250x128 .f32 := Host.absf main_arg0
  let main_cst : FVec F S_ .f32 := constant S_ .f32 0x7F800000#32
  let main_v1 : FVec F S1x1x116250x128 .f32 := broadcastInDim S1x1x116250x128 ![] bcast_S_S1x1x116250x128 main_cst
  let main_v2 : IVec S1x1x116250x128 1 := cmpf .olt main_v0 main_v1
  let main_c : IVec S_ 1 := constantI S_ 1 1#1
  let main_v3 : IVec S_ 1 := (fun x v => Host.reduce IntOp.andi x v reducesTo_S1x1x116250x128_S_d0_1_2_3 h_S_) main_v2 main_c
  let main_v4 : FVec F S64x1x1x128 .f32 := Host.absf main_arg1
  let main_cst_0 : FVec F S_ .f32 := constant S_ .f32 0x7F800000#32
  let main_v5 : FVec F S64x1x1x128 .f32 := broadcastInDim S64x1x1x128 ![] bcast_S_S64x1x1x128 main_cst_0
  let main_v6 : IVec S64x1x1x128 1 := cmpf .olt main_v4 main_v5
  let main_c_1 : IVec S_ 1 := constantI S_ 1 1#1
  let main_v7 : IVec S_ 1 := (fun x v => Host.reduce IntOp.andi x v reducesTo_S64x1x1x128_S_d0_1_2_3 h_S_) main_v6 main_c_1
  let main_v8 : IVec S_ 1 := andi main_v3 main_v7
  main_v8
-- ==== Kernel.lean ====
abbrev S1x1x116250x128 : Shape := ⟨4, ![1, 1, 116250, 128]⟩
abbrev S64x1x1x128 : Shape := ⟨4, ![64, 1, 1, 128]⟩
abbrev S116250x128 : Shape := ⟨2, ![116250, 128]⟩
abbrev S64x128 : Shape := ⟨2, ![64, 128]⟩
abbrev S64x116250 : Shape := ⟨2, ![64, 116250]⟩
abbrev S8192x128 : Shape := ⟨2, ![8192, 128]⟩
abbrev S64x8192 : Shape := ⟨2, ![64, 8192]⟩
abbrev S5x64x62x375 : Shape := ⟨4, ![5, 64, 62, 375]⟩

abbrev nBuf : Space → Nat
  | .hbm => 7
  | .vmem => 5
  | .smem => 0
  | _ => 0

abbrev bufTy : (tb : Table) → Fin (tcTables nBuf tb) → BufTy
  | .hbm, ⟨0, _⟩ => ⟨S1x1x116250x128, .f32⟩
  | .hbm, ⟨1, _⟩ => ⟨S64x1x1x128, .f32⟩
  | .hbm, ⟨2, _⟩ => ⟨S116250x128, .f32⟩
  | .hbm, ⟨3, _⟩ => ⟨S64x128, .f32⟩
  | .hbm, ⟨4, _⟩ => ⟨S64x128, .bf16⟩
  | .hbm, ⟨5, _⟩ => ⟨S64x116250, .f32⟩
  | .hbm, ⟨6, _⟩ => ⟨S5x64x62x375, .f32⟩
  | .local _ .vmem, ⟨0, _⟩ => ⟨S64x128, .bf16⟩
  | .local _ .vmem, ⟨1, _⟩ => ⟨S8192x128, .f32⟩
  | .local _ .vmem, ⟨2, _⟩ => ⟨S8192x128, .f32⟩
  | .local _ .vmem, ⟨3, _⟩ => ⟨S64x8192, .f32⟩
  | .local _ .vmem, ⟨4, _⟩ => ⟨S64x8192, .f32⟩
  | _, _ => ⟨S1x1x116250x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x1x116250x128_S116250x128 : S1x1x116250x128.ShapeCasts S116250x128
  shapeCasts_S64x1x1x128_S64x128 : S64x1x1x128.ShapeCasts S64x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S64x8192_S64x8192_0_0 : ∀ a, (![0, 0] : Fin 2 → Nat) a + S64x8192.size a ≤ S64x8192.size a
  h_S64x8192 : 0 < S64x8192.numel
  shapeCasts_S64x116250_S5x64x62x375 : S64x116250.ShapeCasts S5x64x62x375
  dot_S64x128_S8192x128_S64x8192_1_1_0_0_n_n_wf : DotDims.WF S64x128 S8192x128 S64x8192 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x128.size a
  hwx0_0 : ∀ i : grid0.Coords, EltTy.bits .bf16 = 32 ∨ (Rect.block (s := S64x128) S64x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S116250x128.size a
  hwx0_1 : ∀ i : grid0.Coords, EltTy.bits .f32 = 32 ∨ (Rect.unit (s := S116250x128) (fun a => cc0_transform_1 i a * S8192x128.size a) (fun a => (Pipeline.Clip.of (cc0_transform_1 i a) (S8192x128.size a) (S116250x128.size a)).extent (S8192x128.size a)) fun a => Pipeline.Clip.inb (Pipeline.Clip.ok_of (hstart0_1 i a))).WholeWords (EltTy.packing .f32)
  hwxs0_1 : ∀ i : grid0.Coords, EltTy.bits .f32 = 32 ∨ (Rect.unit (s := S8192x128) (fun _ => 0) (fun a => (Pipeline.Clip.of (cc0_transform_1 i a) (S8192x128.size a) (S116250x128.size a)).extent (S8192x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x8192.size a < S64x116250.size a
  hwx0_2 : ∀ i : grid0.Coords, EltTy.bits .f32 = 32 ∨ (Rect.unit (s := S64x116250) (fun a => cc0_transform_2 i a * S64x8192.size a) (fun a => (Pipeline.Clip.of (cc0_transform_2 i a) (S64x8192.size a) (S64x116250.size a)).extent (S64x8192.size a)) fun a => Pipeline.Clip.inb (Pipeline.Clip.ok_of (hstart0_2 i a))).WholeWords (EltTy.packing .f32)
  hwxs0_2 : ∀ i : grid0.Coords, EltTy.bits .f32 = 32 ∨ (Rect.unit (s := S64x8192) (fun _ => 0) (fun a => (Pipeline.Clip.of (cc0_transform_2 i a) (S64x8192.size a) (S64x116250.size a)).extent (S64x8192.size a)) fun a => (Nat.zero_add _).trans_le (Pipeline.Clip.extent_le (Pipeline.Clip.ok_of (hstart0_2 i a)))).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf

abbrev win0_0 : Pipeline.Window sig grid0 :=
  Pipeline.Window.ofSpec (Memref.whole main_v2) S64x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S8192x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S64x8192.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1x116250x128 : Shape := ⟨4, ![1, 1, 116250, 128]⟩
abbrev S64x1x1x128 : Shape := ⟨4, ![64, 1, 1, 128]⟩
abbrev S64x128 : Shape := ⟨2, ![64, 128]⟩
abbrev S116250x128 : Shape := ⟨2, ![116250, 128]⟩
abbrev S64x116250 : Shape := ⟨2, ![64, 116250]⟩
abbrev S5x64x62x375 : Shape := ⟨4, ![5, 64, 62, 375]⟩

abbrev nBuf : Space → Nat
  | .hbm => 6
  | .vmem => 0
  | .smem => 0
  | _ => 0

abbrev bufTy : (tb : Table) → Fin (tcTables nBuf tb) → BufTy
  | .hbm, ⟨0, _⟩ => ⟨S1x1x116250x128, .f32⟩
  | .hbm, ⟨1, _⟩ => ⟨S64x1x1x128, .f32⟩
  | .hbm, ⟨2, _⟩ => ⟨S64x128, .f32⟩
  | .hbm, ⟨3, _⟩ => ⟨S116250x128, .f32⟩
  | .hbm, ⟨4, _⟩ => ⟨S64x116250, .f32⟩
  | .hbm, ⟨5, _⟩ => ⟨S5x64x62x375, .f32⟩
  | _, _ => ⟨S1x1x116250x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S64x1x1x128_S64x128 : S64x1x1x128.ShapeCasts S64x128
  shapeCasts_S1x1x116250x128_S116250x128 : S1x1x116250x128.ShapeCasts S116250x128
  shapeCasts_S64x116250_S5x64x62x375 : S64x116250.ShapeCasts S5x64x62x375
  dot_S64x128_S116250x128_S64x116250_1_1_0_0_n_n_wf : DotDims.WF S64x128 S116250x128 S64x116250 [1] [1] [0] [0] [] []

variable [Facts₀]

def dot_S64x128_S116250x128_S64x116250_1_1_0_0_n_n : DotDims S64x128 S116250x128 S64x116250 where
  lhsContracting := [1]
  rhsContracting := [1]
  lhsNonContracting := [0]
  rhsNonContracting := [0]
  lhsBatch := []
  rhsBatch := []
  wf := dot_S64x128_S116250x128_S64x116250_1_1_0_0_n_n_wf

class Facts : Prop extends Facts₀ where

variable [Facts]
-- ==== Proof.TileBodyBits.lean ====
/-
  The body of the matrix-product kernel at one grid point, as a separation-logic triple, for any float
  instance: it loads the whole weight tile (64 × 128) and the whole streamed tile (8192 × 128), multiplies
  them on the matrix unit into a zero accumulator, and stores the 64 × 8192 product over the whole output
  tile. So the two input tiles are left as found and the output tile ends at the product of what the two
  input tiles held, whatever the output tile held before.
-/
import proofs.«104376_j7292854468609_2_alg».proof.Proof.Gen.Kernel.Skeleton
import proofs.«104376_j7292854468609_2_alg».proof.Proof.Gen.Kernel.Frame

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole-tile rectangles the body reads and writes. -/
abbrev rW : Rect S64x128 := Rect.unit (s := S64x128) ![0, 0] S64x128.size Gen.inb_S64x128_S64x128_0_0
abbrev rX : Rect S8192x128 := Rect.unit (s := S8192x128) ![0, 0] S8192x128.size Gen.inb_S8192x128_S8192x128_0_0
abbrev rO : Rect S64x8192 := Rect.unit (s := S64x8192) ![0, 0] S64x8192.size Gen.inb_S64x8192_S64x8192_0_0

/-- What the output tile holds after the body, from what the two input tiles hold: its one store, over the
    whole tile, of the product of the two whole loads. -/
def outTile (x0 : Vec F S64x128 .bf16) (x1 : Vec F S8192x128 .f32) : Vec F S64x8192 .f32 :=
  View.canon [⟨rO, k0_pay1 (View.ld x0 rW) (View.ld x1 rX)⟩]

/-- The one store covers the output tile. -/
theorem cover_out (p0 : Vec F S64x8192 .f32) (y : S64x8192.Idx) :
    ∃ pc ∈ ([⟨rO, p0⟩] : List (View.Piece (Elt F) S64x8192 .f32)), y ∈ pc.1.set :=
  View.cover_of_tiled [⟨rO, p0⟩] S64x8192.size (by rfl) y

set_option maxHeartbeats 1000000 in
/-- The body on whole tile buffers: the inputs at contents `x0`, `x1` and the output at anything run to the
    inputs unchanged and the output at `outTile x0 x1`. -/
theorem sound_kernel (c : Dev nD) (E : Set ℕ) (i : grid0.Coords)
    (arg1 : Memref sig .tc .vmem S64x128 .bf16) (harg1 : arg1.IsWhole)
    (arg2 : Memref sig .tc .vmem S8192x128 .f32) (harg2 : arg2.IsWhole)
    (arg3 : Memref sig .tc .vmem S64x8192 .f32) (harg3 : arg3.IsWhole)
    (x0 : Vec F S64x128 .bf16) (x1 : Vec F S8192x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outTile x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.Kernel.Tile

end
-- ==== Proof.FrameBits.lean ====
/-
  The word-level kernel runs to the end, faults nowhere and leaves its two argument arrays unchanged. Nothing of
  what the product tiles hold is needed for that: the proof data relates what each tile buffer held before the body
  to what it holds after by the relation that is always true, and the body's triple (two whole loads, the product,
  one whole store) gives every buffer back at some contents. The argument arrays are no array of the pipeline and
  no result of the reshape after it, so they end as the region found them, which is as launched.
-/
import proofs.«104376_j7292854468609_2_alg».proof.Proof.TileBodyBits
import Idealize.ShloMosaic.Lib.Pipeline.FrameSuffix

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; of what the body leaves in a tile buffer,
    nothing; the class's invariant; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point: whatever the three current tile buffers hold, it runs and hands each back at some
    contents; the invariant and what the core owes pass through unread. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0)
        ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2⟩
  iapply (sound_kernel (F := F) c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  · iexists (outTile (Y 0) (Y 1)); isplitr; · ipureintro; trivial
    iexact H2

/-- The library's body obligation, at every point. -/
theorem body_obligation (c : Dev nD) : (rdat (F := F) m c).BodyObligation (defs₀ (F := F)) Variants.none () Set.univ := fun t Y _ => by
  rw [bigSep_W0, bigSep_W0]
  exact sound_body m c t Y

/-- The one host line after the region writes the reshaped result only. -/
theorem sfx_writes : ∀ ops ∈ ([hostOps1] : List (List (HloOp τ sig (Elt F)))), ∀ op ∈ ops,
    ∀ b : Ref sig .tc, Proc.devRef .tc b ∈ op.writes → b ∈ ({main_v4} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (Proc.devRef_injective (τ := τ) _ hb)

set_option backward.isDefEq.respectTransparency.types false in
/-- Every weakly fair execution of @main terminates, and every buffer that is neither an array of the pipeline nor the
    reshaped result ends as the region found it. -/
theorem run_main : θ_run defs (onTc (τ := τ) (main (F := F))) (s₀ m ρ)
    (RDat.FramePostR cfg0 (rdat m) {main_v4} (fun c b => V0 m c (Proc.devRef .tc b))) :=
  RDat.θ_run_frame_around_T cfgs (0 : Fin 1) launch0 defs₀ Variants.none (rdat m) {main_v4} m ρ main
    (hbody := body_obligation m) (hshare := fun c => (rdat m c).share_full fun _ => rfl)
    (howed := fun _ _ => rfl) (V₀ := V0 m) (opss := [hostOps1])
    (hsub := sfx_sub) (hfresh := sfx_fresh) (hkeep := sfx_keeps) (hT := sfx_writes)
    (hmain := hmain m Variants.none) (hA := fun _ _ => rfl) (hΦ := fun _ _ => rfl)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_main m ρ)

end Cert.Kernel.Tile

end
-- ==== Proof.TileBodyIdeal.lean ====
/-
  The body of the matrix-product kernel at one grid point, as a separation-logic triple, for any float
  instance: it loads the whole weight tile (64 × 128) and the whole streamed tile (8192 × 128), multiplies
  them on the matrix unit into a zero accumulator, and stores the 64 × 8192 product over the whole output
  tile. So the two input tiles are left as found and the output tile ends at the product of what the two
  input tiles held, whatever the output tile held before.
-/
import proofs.«104376_j7292854468609_2_alg».proof.Proof.Gen.KernelIdeal.Skeleton
import proofs.«104376_j7292854468609_2_alg».proof.Proof.Gen.KernelIdeal.Frame

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole-tile rectangles the body reads and writes. -/
abbrev rW : Rect S64x128 := Rect.unit (s := S64x128) ![0, 0] S64x128.size Gen.inb_S64x128_S64x128_0_0
abbrev rX : Rect S8192x128 := Rect.unit (s := S8192x128) ![0, 0] S8192x128.size Gen.inb_S8192x128_S8192x128_0_0
abbrev rO : Rect S64x8192 := Rect.unit (s := S64x8192) ![0, 0] S64x8192.size Gen.inb_S64x8192_S64x8192_0_0

/-- What the output tile holds after the body, from what the two input tiles hold: its one store, over the
    whole tile, of the product of the two whole loads. -/
def outTile (x0 : Vec F S64x128 .bf16) (x1 : Vec F S8192x128 .f32) : Vec F S64x8192 .f32 :=
  View.canon [⟨rO, k0_pay1 (View.ld x0 rW) (View.ld x1 rX)⟩]

/-- The one store covers the output tile. -/
theorem cover_out (p0 : Vec F S64x8192 .f32) (y : S64x8192.Idx) :
    ∃ pc ∈ ([⟨rO, p0⟩] : List (View.Piece (Elt F) S64x8192 .f32)), y ∈ pc.1.set :=
  View.cover_of_tiled [⟨rO, p0⟩] S64x8192.size (by rfl) y

set_option maxHeartbeats 1000000 in
/-- The body on whole tile buffers: the inputs at contents `x0`, `x1` and the output at anything run to the
    inputs unchanged and the output at `outTile x0 x1`. -/
theorem sound_kernel (c : Dev nD) (E : Set ℕ) (i : grid0.Coords)
    (arg1 : Memref sig .tc .vmem S64x128 .bf16) (harg1 : arg1.IsWhole)
    (arg2 : Memref sig .tc .vmem S8192x128 .f32) (harg2 : arg2.IsWhole)
    (arg3 : Memref sig .tc .vmem S64x8192 .f32) (harg3 : arg3.IsWhole)
    (x0 : Vec F S64x128 .bf16) (x1 : Vec F S8192x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outTile x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.KernelIdeal.Tile

end
-- ==== Proof.TileProduct.lean ====
/-
  The product tile at an index, on the extended reals. The matrix unit multiplies the 64 × 128 weight tile
  `a` by the 8192 × 128 streamed tile `x`, contracting the second axis of each: entry (f, n) of the product is
  the sum over k of a (f, k) · x (n, k). The narrowing of `x` to bf16 and the two same-shape casts are the
  identity on the extended reals, and the accumulator is the zero splat. So row n of `x` is all that column
  n of the product depends on.
-/
import proofs.«104376_j7292854468609_2_alg».proof.Proof.TileBodyIdeal
import Idealize.ShloMosaic.Lib.ValueIdx
import Idealize.ShloMosaic.Lib.Pipeline.Value
import Idealize.ShloMosaic.PureOps.Ideal.Laws

open scoped BigOperators

noncomputable section

namespace Cert.KernelIdeal.Tile

open Cert.KernelIdeal Cert.KernelIdeal.Gen
open Idealize.ShloMosaic Idealize.ShloMosaic.TcCoe Idealize.ShloMosaic.ValueIdx

/-- The left operand is read at the output's row, -/
theorem lhs_row (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide), dif_pos (show (0 : Fin S64x128.rank) ∈ dot_S64x128_S8192x128_S64x8192_1_1_0_0_n_n.lhsNonContracting by decide)]
  rfl
/-- at the contracted position; -/
theorem lhs_col (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q
/-- the right operand at the output's column, as a ROW of the streamed tile, -/
theorem rhs_row (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide), dif_pos (show (0 : Fin S8192x128.rank) ∈ dot_S64x128_S8192x128_S64x8192_1_1_0_0_n_n.rhsNonContracting by decide)]
  rfl
/-- at the contracted position. -/
theorem rhs_col (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q

/-- Entry (f, n) of the product tile is the sum over k of a (f, k) · x (n, k). -/
theorem pay_apply (a : FVec Ideal S64x128 .bf16) (x : FVec Ideal S8192x128 .f32) (f : Fin 64) (n : Fin 8192) :
    k0_pay1 (F := Ideal) a x (ix2 f n) = ∑ k : Fin 128, a (ix2 f k) * x (ix2 n k) := by
  unfold k0_pay1
  rw [shapeCast_self, shapeCast_self]
  refine (Ideal.matmul_constant_zero_apply dot_S64x128_S8192x128_S64x8192_1_1_0_0_n_n none a (truncf .bf16 x bitsLt_bf16_f32) (ix2 f n)).trans ?_
  rw [← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 f n) ((contrEquiv1 dot_S64x128_S8192x128_S64x8192_1_1_0_0_n_n 128 rfl rfl).symm k) = ix2 f k := funext fun ax => Fin.ext (by
    match ax with
    | ⟨0, _⟩ => exact lhs_row _ _
    | ⟨1, _⟩ => exact (lhs_col _ _).trans hk)
  have er : dot_S64x128_S8192x128_S64x8192_1_1_0_0_n_n.rhsIdx (ix2 f n) ((contrEquiv1 dot_S64x128_S8192x128_S64x8192_1_1_0_0_n_n 128 rfl rfl).symm k) = ix2 n k := funext fun ax => Fin.ext (by
    match ax with
    | ⟨0, _⟩ => exact rhs_row _ _
    | ⟨1, _⟩ => exact (rhs_col _ _).trans hk)
  rw [el, er]
  rfl

/-- Column n of the product depends on row n of the streamed tile only. -/
theorem pay_congr_row (a : FVec Ideal S64x128 .bf16) (x x' : FVec Ideal S8192x128 .f32) (f : Fin 64) (n : Fin 8192)
    (h : ∀ k : Fin 128, x (ix2 n k) = x' (ix2 n k)) :
    k0_pay1 (F := Ideal) a x (ix2 f n) = k0_pay1 (F := Ideal) a x' (ix2 f n) := by
  rw [pay_apply, pay_apply]
  exact Finset.sum_congr rfl fun k _ => by rw [h k]

/-- The output tile after the body is the product of the two input tiles. -/
theorem outTile_eq {F : FTy → Type} [FloatOps F] (x0 : Vec F S64x128 .bf16) (x1 : Vec F S8192x128 .f32) :
    outTile x0 x1 = k0_pay1 x0 x1 := by
  have hz : (![0, 0] : Fin 2 → Nat) = fun _ => 0 := funext fun a => by fin_cases a <;> rfl
  unfold outTile
  rw [View.canon_unit_zero hz]
  simp only [View.ld_unit_zero (S := S64x128) hz, View.ld_unit_zero (S := S8192x128) hz]

end Cert.KernelIdeal.Tile

end
-- ==== Proof.IdealData.lean ====
/-
  The idealized kernel's proof data, with what every tile buffer holds after the body NAMED, and its run.
  At grid point t the weight tile's buffer holds the whole 64 × 128 weight matrix; the streamed tile's buffer
  holds rows 8192·t … of the 116250 × 128 matrix on the rows inside the matrix (at the last point, 1562 of them)
  and words nothing names below them; the output tile's buffer ends at the product of the two. Column n of that
  product is read off row n of the streamed tile alone, so on the columns inside the output matrix — all that is
  written back — the product does not depend on the unnamed rows.
-/
import proofs.«104376_j7292854468609_2_alg».proof.Proof.TileProduct
import Idealize.ShloMosaic.Lib.Pipeline.FrameSuffix

set_option maxRecDepth 16384

noncomputable section

namespace Cert.KernelIdeal.Tile

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The cuts, decided over the grid -/

/-- At every point the output tile is cut on its columns exactly as the streamed tile is on its rows, and neither
    is cut on its other axis. -/
theorem cut_sizes : ∀ t : Fin cfg0.N,
    win0_2.xsize (grid0.coords t) 0 = 64 ∧ win0_2.xsize (grid0.coords t) 1 = win0_1.xsize (grid0.coords t) 0
      ∧ win0_1.xsize (grid0.coords t) 1 = 128 :=
  (by decide +kernel : ∀ t : Fin grid0.N,
    win0_2.xsize (grid0.coords t) 0 = 64 ∧ win0_2.xsize (grid0.coords t) 1 = win0_1.xsize (grid0.coords t) 0
      ∧ win0_1.xsize (grid0.coords t) 1 = 128)

/-! ## The proof data -/

/-- The streamed tile at point `t` as the proof data names it: its rows inside the matrix, zero below them. -/
def xTile (c : Dev nD) (t : Fin cfg0.N) : S8192x128.Idx → Elt Ideal .f32 :=
  win0_1.fill (grid0.coords t) (fun _ => Scalar.ofBits (F := Ideal) .f32 0#32) (iblk m c 1 t)

/-- The proof data on core `c`: the arrays as the region finds them; after the body the weight tile's buffer at the
    weight matrix, the streamed tile's at `xTile`, the output tile's at their product; the class's invariant;
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => xTile m c t
    | ⟨2, _⟩ => outTile (iblk m c 0 t) (xTile m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_w (c : Dev nD) (t : Fin cfg0.N) : (dats m 0 c).after 0 t = iblk m c 0 t := by dsimp only [dats]
theorem after_x (c : Dev nD) (t : Fin cfg0.N) : (dats m 0 c).after 1 t = xTile m c t := by dsimp only [dats]
theorem after_o (c : Dev nD) (t : Fin cfg0.N) :
    (dats m 0 c).after 2 t = outTile (iblk m c 0 t) (xTile m c t) := by dsimp only [dats]

/-- The weight tile's buffer holds the weight matrix at every point (fetched once, left in place). -/
theorem before_w (c : Dev nD) (t : Fin cfg0.N) (d) : (dats m 0 c).before 0 t d = iblk m c 0 t :=
  before0_0_of m (dats m 0 c) (A_eq m c 0) (after_w m c) t d

/-- The streamed tile's buffer, fetched at every point, holds its rows inside the matrix and `d` below them. -/
theorem before_x (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- The output tile's buffer, written back at every point, holds anything when the body starts. -/
theorem before_o (c : Dev nD) (t : Fin cfg0.N) (d) : (dats m 0 c).before 2 t d = d :=
  Dat.before_out_reset _ 2 rfl t (by
    by_cases h : t.val = 0
    · exact .inl h
    · exact .inr ⟨h, flush0_2 _⟩) d

/-! ## On the columns written back, the product does not see the unnamed rows -/

/-- Two fills of the streamed tile agree on a moved entry. -/
theorem fill_agree (i : grid0.Coords) (d d' : S8192x128.Idx → Elt Ideal .f32)
    (g : (win0_1.xblock i).Idx → Elt Ideal .f32) (y : S8192x128.Idx) (h : win0_1.moved i y = true) :
    win0_1.fill i d g y = win0_1.fill i d' g y := by
  unfold Window.fill; rw [dif_pos h, dif_pos h]

end Cert.KernelIdeal.Tile

end
-- ==== Proof.IdealRun.lean ====
/-
  The idealized kernel's body obligation and run. On the columns of the product tile that are written back the
  product does not depend on what fills the streamed tile's rows past the matrix's end: column n of the product
  reads row n of the streamed tile alone, and the columns written back are the rows fetched. With that, the body's
  triple gives the obligation for tiles cut at the matrices' ends, and the library's frame run with the reshape after
  the region gives the run.
-/
import proofs.«104376_j7292854468609_2_alg».proof.Proof.IdealData

set_option maxRecDepth 16384

noncomputable section

namespace Cert.KernelIdeal.Tile

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The part of the product tile that is written back is the same whatever fills the streamed tile's rows past the
    matrix's end. -/
theorem cut_out_congr (t : Fin cfg0.N) (a : FVec Ideal S64x128 .bf16) (d d' : S8192x128.Idx → Elt Ideal .f32)
    (g : (win0_1.xblock (grid0.coords t)).Idx → Elt Ideal .f32) :
    win0_2.cut (grid0.coords t) (outTile a (win0_1.fill (grid0.coords t) d g))
      = win0_2.cut (grid0.coords t) (outTile a (win0_1.fill (grid0.coords t) d' g)) := by
  obtain ⟨h0, h1, h2⟩ := cut_sizes t
  funext j
  have hj1 : (j 1).val < win0_2.xsize (grid0.coords t) 1 := (j 1).isLt
  rw [h1] at hj1
  have b0 : (j 0).val < 64 := (win0_2.xinj (grid0.coords t) j 0).isLt
  have b1 : (j 1).val < 8192 := (win0_2.xinj (grid0.coords t) j 1).isLt
  have e : win0_2.xinj (grid0.coords t) j = ix2 (n0 := 64) (n1 := 8192) ⟨(j 0).val, b0⟩ ⟨(j 1).val, b1⟩ :=
    funext fun ax => Fin.ext (by match ax with | ⟨0, _⟩ => rfl | ⟨1, _⟩ => rfl)
  show outTile a (win0_1.fill (grid0.coords t) d g) (win0_2.xinj (grid0.coords t) j)
      = outTile a (win0_1.fill (grid0.coords t) d' g) (win0_2.xinj (grid0.coords t) j)
  rw [e, outTile_eq, outTile_eq]
  refine pay_congr_row a _ _ ⟨(j 0).val, b0⟩ ⟨(j 1).val, b1⟩ fun k => ?_
  refine fill_agree (grid0.coords t) d d' g _ ((win0_1.moved_iff _ _).mpr fun ax => ?_)
  match ax with
  | ⟨0, _⟩ => exact hj1
  | ⟨1, _⟩ =>
    show k.val < win0_1.xsize (grid0.coords t) 1
    rw [h2]; exact k.isLt

/-! ## The body obligation -/

/-- The body at any point, in the form the loop uses for windows whose edge tiles are cut: the weight tile is left
    as found; the streamed tile is left as found, which on its rows inside the matrix is `xTile`; the output tile ends
    at the product of what the two held, which on its columns inside the matrix is the product with `xTile`. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare
                (win0_1.fill (grid0.coords t) d (win0_1.cut (grid0.coords t) ((dats m 0 c).after 1 t))))
            ∗ (∃ d, owns (c : Thread nD τ) (st0_2 t) fullShare
                (win0_2.fill (grid0.coords t) d (win0_2.cut (grid0.coords t) ((dats m 0 c).after 2 t)))))) := by
  unfold bodyAt0
  rw [show (dats m 0 c).Φ t.succ = (dats m 0 c).Φ t.castSucc from rfl,
    show (dats m 0 c).owesAt () t.succ = (dats m 0 c).owesAt () t.castSucc from rfl,
    after_w, after_x, after_o]
  iintro ⟨HΦ, Ho, ⟨%d0, H0⟩, ⟨%d1, H1⟩, ⟨%d2, H2⟩⟩
  rw [before_w m c t d0, before_x m c t d1, before_o m c t d2]
  iapply (sound_kernel (F := Ideal) c Set.univ _ _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show win0_1.cut (grid0.coords t) (xTile m c t) = iblk m c 1 t from win0_1.cut_fill _ _ _]
    iexact H1
  · iexists outTile (iblk m c 0 t) (win0_1.fill (grid0.coords t) d1 (iblk m c 1 t))
    rw [show xTile m c t = win0_1.fill (grid0.coords t) (fun _ => Scalar.ofBits (F := Ideal) .f32 0#32) (iblk m c 1 t) from rfl,
      win0_2.fill_congr_cut (grid0.coords t) (cut_out_congr t (iblk m c 0 t) d1 _ (iblk m c 1 t))]
    iexact H2

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates; the arrays of the pipeline end at what the library computes from
    the proof data, and every other buffer at what the reshape after the region makes of that. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1])
    (hsub := sfx_sub) (hfresh := sfx_fresh) (hkeep := sfx_keeps)
    (hmain := hmain m Variants.none) (hA := A_eq m) (hΦ := fun _ _ => rfl)

/-- The frame: the two argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Tile

end
-- ==== Proof.RowsProduct.lean ====
/-
  The function both programs compute before their common final reshape: for a 64 × 128 matrix w and a
  116250 × 128 matrix x, the 64 × 116250 matrix whose entry (f, n) is the sum over k of w (f, k) · x (n, k)
  — every row of w against every row of x — on the extended reals.
-/
import Idealize.ShloMosaic.Lib.ValueIdx
import Idealize.ShloMosaic.PureOps.Ideal

open scoped BigOperators

noncomputable section

namespace Cert.RowsProduct

open Idealize.ShloMosaic Idealize.ShloMosaic.ValueIdx

/-- Entry (f, n) is the sum over k of w (f, k) · x (n, k). -/
def rowsProduct (w : (⟨2, ![64, 128]⟩ : Shape).Idx → EReal) (x : (⟨2, ![116250, 128]⟩ : Shape).Idx → EReal) :
    (⟨2, ![64, 116250]⟩ : Shape).Idx → EReal :=
  fun i => ∑ k : Fin 128, w (ix2 (i 0) k) * x (ix2 (i 1) k)

theorem rowsProduct_apply (w : (⟨2, ![64, 128]⟩ : Shape).Idx → EReal) (x : (⟨2, ![116250, 128]⟩ : Shape).Idx → EReal)
    (f : Fin 64) (n : Fin 116250) : rowsProduct w x (ix2 f n) = ∑ k : Fin 128, w (ix2 f k) * x (ix2 n k) := rfl

end Cert.RowsProduct

end
-- ==== Proof.IdealResult.lean ====
/-
  The idealized kernel's result as a function of its arguments. What grid point t writes back is tile t of the
  rows product of the two matrices the region finds: entry (f, j) of the written-back part of the product tile sums
  the weight matrix's row f against row 8192·t + j of the streamed matrix, which is entry (f, 8192·t + j) of the
  rows product. The fifteen tiles, the last cut to 1562 columns, cover the 64 × 116250 result, so the result array
  ends at the rows product; the line after the region reshapes it. The matrices the region finds are the reshaped
  arguments (the narrowing of the weights to bf16 is the identity on the extended reals).
-/
import proofs.«104376_j7292854468609_2_alg».proof.Proof.IdealData
import proofs.«104376_j7292854468609_2_alg».proof.Proof.RowsProduct
import Idealize.ShloMosaic.Lib.StableHlo.Run

set_option maxRecDepth 16384

open scoped BigOperators

noncomputable section

namespace Cert.KernelIdeal.Tile

open Cert.KernelIdeal Cert.KernelIdeal.Gen Cert.RowsProduct
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The weight matrix and the streamed matrix as the region finds them. -/
def wMat (c : Dev nD) : S64x128.Idx → EReal := V m c main_v2
def xMat (c : Dev nD) : S116250x128.Idx → EReal := V m c main_v0

/-! ## Where the tiles sit, decided over the grid -/

/-- The weight tile is the whole matrix at every point; the streamed tile's rows start where the output tile's
    columns do; neither moves on its other axis. -/
theorem tile_offsets : ∀ t : Fin cfg0.N,
    win0_0.index t 0 = 0 ∧ win0_0.index t 1 = 0 ∧ win0_1.index t 1 = 0 ∧ win0_2.index t 0 = 0
      ∧ win0_2.index t 1 = win0_1.index t 0 :=
  (by decide +kernel : ∀ t : Fin grid0.N,
    win0_0.index t 0 = 0 ∧ win0_0.index t 1 = 0 ∧ win0_1.index t 1 = 0 ∧ win0_2.index t 0 = 0
      ∧ win0_2.index t 1 = win0_1.index t 0)

/-- Output tile t starts at column 8192·t and has 8192 columns, or as many as are left. -/
theorem out_tile_cols : ∀ t : Fin cfg0.N,
    win0_2.index t 1 = t.val ∧ win0_2.xsize (grid0.coords t) 1 = min 8192 (116250 - t.val * 8192) :=
  (by decide +kernel : ∀ t : Fin grid0.N,
    win0_2.index t 1 = t.val ∧ win0_2.xsize (grid0.coords t) 1 = min 8192 (116250 - t.val * 8192))

/-! ## What a point writes back -/

/-- What point t writes back is tile t of the rows product. -/
theorem flushed_eq (c : Dev nD) (t : Fin cfg0.N) :
    (dats m 0 c).flushed 2 t
      = ((cfg0.win 2).blk t).view.read (Elt Ideal) (rowsProduct (wMat m c) (xMat m c)) := by
  obtain ⟨h0, h1, h2⟩ := cut_sizes t
  obtain ⟨i00, i01, i11, i20, i21⟩ := tile_offsets t
  funext j
  have hj1 : (j 1).val < win0_1.xsize (grid0.coords t) 0 := h1 ▸ (j 1).isLt
  have e : win0_2.xinj (grid0.coords t) j
      = ix2 (n0 := 64) (n1 := 8192) ⟨(j 0).val, (win0_2.xinj (grid0.coords t) j 0).isLt⟩ ⟨(j 1).val, (win0_2.xinj (grid0.coords t) j 1).isLt⟩ :=
    funext fun ax => Fin.ext (by match ax with | ⟨0, _⟩ => rfl | ⟨1, _⟩ => rfl)
  show (dats m 0 c).after 2 t (win0_2.xinj (grid0.coords t) j)
      = rowsProduct (wMat m c) (xMat m c) (((cfg0.win 2).blk t).view.emb j)
  rw [after_o, outTile_eq, e, pay_apply]
  show _ = ∑ k : Fin 128, wMat m c (ix2 ((((cfg0.win 2).blk t).view.emb j) 0) k) * xMat m c (ix2 ((((cfg0.win 2).blk t).view.emb j) 1) k)
  refine Finset.sum_congr rfl fun k _ => ?_
  have hmv : win0_1.moved (grid0.coords t) (ix2 (n0 := 8192) (n1 := 128) ⟨(j 1).val, (win0_2.xinj (grid0.coords t) j 1).isLt⟩ k) = true :=
    (win0_1.moved_iff _ _).mpr fun ax => by
      match ax with
      | ⟨0, _⟩ => exact hj1
      | ⟨1, _⟩ => show k.val < win0_1.xsize (grid0.coords t) 1; rw [h2]; exact k.isLt
  congr 1
  · show V m c main_v2 (((cfg0.win 0).blk t).view.emb _) = V m c main_v2 _
    refine congrArg (V m c main_v2) (funext fun ax => Fin.ext ?_)
    match ax with
    | ⟨0, _⟩ =>
      show win0_0.index t 0 * 64 + 1 * (j 0).val = win0_2.index t 0 * 64 + 1 * (j 0).val
      rw [i00, i20]
    | ⟨1, _⟩ =>
      show win0_0.index t 1 * 128 + 1 * k.val = k.val
      rw [i01]; omega
  · unfold xTile Window.fill
    rw [dif_pos hmv]
    show V m c main_v0 (((cfg0.win 1).blk t).view.emb _) = V m c main_v0 _
    refine congrArg (V m c main_v0) (funext fun ax => Fin.ext ?_)
    match ax with
    | ⟨0, _⟩ =>
      show win0_1.index t 0 * 8192 + 1 * (j 1).val = win0_2.index t 1 * 8192 + 1 * (j 1).val
      rw [i21]
    | ⟨1, _⟩ =>
      show win0_1.index t 1 * 128 + 1 * k.val = k.val
      rw [i11]; omega

/-! ## The tiles cover the result -/

/-- An entry of the result is in tile t when its column is among the tile's columns inside the matrix. -/
theorem mem_tile (t : Fin cfg0.N) (i : S64x116250.Idx) :
    i ∈ ((cfg0.win 2).blk t).view.set ↔ ∀ a, win0_2.index t a * win0_2.size a ≤ (i a).val
      ∧ (i a).val < win0_2.index t a * win0_2.size a + win0_2.xsize (grid0.coords t) a := by
  show i ∈ ((View.whole main_v3).slice (win0_2.rect t)).set ↔ _
  rw [View.set_slice_whole, Rect.mem_set_unit]

/-- Every entry of the result is in the tile of its column's quotient by 8192. -/
theorem tiles_cover (i : S64x116250.Idx) :
    ∃ t : Fin cfg0.N, (cfg0.win 2).flush t = true ∧ i ∈ ((cfg0.win 2).blk t).view.set := by
  have hi0 : (i 0).val < 64 := (i 0).isLt
  have hi1 : (i 1).val < 116250 := (i 1).isLt
  have hN : cfg0.N = 15 := N_0
  have ht : (i 1).val / 8192 < cfg0.N := by rw [hN]; omega
  refine ⟨⟨(i 1).val / 8192, ht⟩, flush0_2 _, (mem_tile _ i).mpr fun a => ?_⟩
  obtain ⟨h0, -, -⟩ := cut_sizes ⟨(i 1).val / 8192, ht⟩
  obtain ⟨-, -, -, i20, -⟩ := tile_offsets ⟨(i 1).val / 8192, ht⟩
  obtain ⟨c1, c2⟩ := out_tile_cols ⟨(i 1).val / 8192, ht⟩
  match a with
  | ⟨0, _⟩ =>
    show win0_2.index _ 0 * 64 ≤ (i 0).val ∧ (i 0).val < win0_2.index _ 0 * 64 + win0_2.xsize _ 0
    rw [i20, h0]; omega
  | ⟨1, _⟩ =>
    show win0_2.index _ 1 * 8192 ≤ (i 1).val ∧ (i 1).val < win0_2.index _ 1 * 8192 + win0_2.xsize _ 1
    rw [c1, c2]
    show (i 1).val / 8192 * 8192 ≤ (i 1).val ∧ (i 1).val < (i 1).val / 8192 * 8192 + min 8192 (116250 - (i 1).val / 8192 * 8192)
    omega

/-- The result array after the region is the rows product of the two matrices the region finds. -/
theorem final_o (c : Dev nD) : (dats m 0 c).arrAt 2 cfg0.N = rowsProduct (wMat m c) (xMat m c) :=
  (dats m 0 c).arrAt_eq_of_cover 2 (rowsProduct (wMat m c) (xMat m c)) (fun t _ => flushed_eq m c t) tiles_cover

/-! ## The matrices the region finds, and the line after it -/

/-- The streamed matrix is the first argument reshaped. -/
theorem xMat_eq (c : Dev nD) :
    xMat m c = shapeCast S116250x128 (m ((c.tc : Thread nD τ).loc main_arg0)) Gen.shapeCasts_S1x1x116250x128_S116250x128 := by
  show StableHlo.after hostOps0 (fun b => m (c, b)) (Proc.devRef .tc main_v0) = _
  after_results
  rfl

/-- The weight matrix is the second argument reshaped (narrowed to bf16: the identity here). -/
theorem wMat_eq (c : Dev nD) :
    wMat m c = shapeCast S64x128 (m ((c.tc : Thread nD τ).loc main_arg1)) Gen.shapeCasts_S64x1x1x128_S64x128 := by
  show StableHlo.after hostOps0 (fun b => m (c, b)) (Proc.devRef .tc main_v2) = _
  after_results
  rfl

/-- The program's result: the rows product, reshaped. -/
theorem result_eq (c : Dev nD) :
    Pipeline.afterTail₀ cfgs (dats m) 0 (V0 m) [hostOps1] c main_v4
      = shapeCast S5x64x62x375 (rowsProduct (wMat m c) (xMat m c)) Gen.shapeCasts_S64x116250_S5x64x62x375 := by
  unfold Pipeline.afterTail₀
  show StableHlo.after hostOps1 _ (Proc.devRef .tc main_v4) = _
  after_results
  rw [(Pipeline.withArrays_arr spec0 launch0.win.arr_inj c _ _ 2).trans (final_o m c)]
  rfl

end Cert.KernelIdeal.Tile

end
-- ==== Proof.RefProduct.lean ====
/-
  The reference's product stage is the rows product of its two reshaped arguments: the host's dot product contracts
  the second axis of each operand, so its entry (f, n) sums w (f, k) · x (n, k) over k.
-/
import proofs.«104376_j7292854468609_2_alg».proof.Proof.Gen.ReferenceIdeal.Read
import proofs.«104376_j7292854468609_2_alg».proof.Proof.RowsProduct

open scoped BigOperators

noncomputable section

namespace Cert.ReferenceIdeal.RowsForm

open Cert.ReferenceIdeal Cert.ReferenceIdeal.Gen Cert.ReferenceIdeal.Read Cert.RowsProduct
open Idealize.ShloMosaic Idealize.ShloMosaic.TcCoe Idealize.ShloMosaic.ValueIdx

/-- The reference's dot product is the rows product of the reshaped weights and the reshaped streamed matrix. -/
theorem dot_eq (x0 : (⟨S1x1x116250x128, .f32⟩ : BufTy).Contents (Elt Ideal)) (x1 : (⟨S64x1x1x128, .f32⟩ : BufTy).Contents (Elt Ideal)) :
    val_main_v2 (F := Ideal) x0 x1 = rowsProduct (val_main_v0 (F := Ideal) x1) (val_main_v1 (F := Ideal) x0) := by
  funext i
  rw [val_main_v2_apply]
  show _ = ∑ k : Fin 128, val_main_v0 (F := Ideal) x1 (ix2 (i 0) k) * val_main_v1 (F := Ideal) x0 (ix2 (i 1) k)
  refine Finset.sum_congr rfl fun k _ => ?_
  have el : lidx_main_v2 i k = ix2 (i 0) k :=
    funext fun a => Fin.ext (by match a with | ⟨0, _⟩ => rfl | ⟨1, _⟩ => rfl)
  have er : ridx_main_v2 i k = ix2 (i 1) k :=
    funext fun a => Fin.ext (by match a with | ⟨0, _⟩ => rfl | ⟨1, _⟩ => rfl)
  rw [el, er]
  rfl

end Cert.ReferenceIdeal.RowsForm

end
-- ==== Proof.lean ====
/-
  The certificate of a tiled matrix product against an einsum. The kernel multiplies a 64 × 128 weight matrix by a
  116250 × 128 matrix, row against row, in fifteen tiles of 8192 rows (the last holds 1562), and reshapes the
  64 × 116250 product to 5 × 64 × 62 × 375; the reference computes the same contraction in one dot product and
  reshapes it the same way. On the extended reals both are the rows product of the two reshaped arguments — entry
  (f, n) the sum over k of w (f, k) · x (n, k) — followed by one and the same reshape, so the results are equal
  element by element, for any inputs. The three programs each run to the end and leave their arguments unchanged;
  the idealization rewrote nothing.
-/
import proofs.«104376_j7292854468609_2_alg».proof.Defs
import proofs.«104376_j7292854468609_2_alg».proof.Proof.Gen.Kernel
import proofs.«104376_j7292854468609_2_alg».proof.Proof.Gen.Kernel.Skeleton
import proofs.«104376_j7292854468609_2_alg».proof.Proof.Gen.Kernel.Launch
import proofs.«104376_j7292854468609_2_alg».proof.Proof.Gen.Kernel.Points
import proofs.«104376_j7292854468609_2_alg».proof.Proof.Gen.Kernel.Frame
import proofs.«104376_j7292854468609_2_alg».proof.Proof.Gen.KernelIdeal
import proofs.«104376_j7292854468609_2_alg».proof.Proof.Gen.KernelIdeal.Skeleton
import proofs.«104376_j7292854468609_2_alg».proof.Proof.Gen.KernelIdeal.Launch
import proofs.«104376_j7292854468609_2_alg».proof.Proof.Gen.KernelIdeal.Points
import proofs.«104376_j7292854468609_2_alg».proof.Proof.Gen.KernelIdeal.Frame
import proofs.«104376_j7292854468609_2_alg».proof.Proof.Gen.ReferenceIdeal
import proofs.«104376_j7292854468609_2_alg».proof.Proof.Gen.ReferenceIdeal.Run
import proofs.«104376_j7292854468609_2_alg».proof.Proof.Gen.ReferenceIdeal.Read
import proofs.«104376_j7292854468609_2_alg».proof.Proof.Gen.Pre_finite_inputs
import proofs.«104376_j7292854468609_2_alg».proof.Proof.FrameBits
import proofs.«104376_j7292854468609_2_alg».proof.Proof.IdealRun
import proofs.«104376_j7292854468609_2_alg».proof.Proof.IdealResult
import proofs.«104376_j7292854468609_2_alg».proof.Proof.RefProduct
import Idealize.ShloMosaic.Adequacy
import Idealize.ShloMosaic.Init

noncomputable section

namespace Cert.Proof

open Idealize.ShloMosaic Idealize.ShloMosaic.TcCoe Idealize.SL.Sem Cert.RowsProduct

/-- The idealized kernel's run: its result is the reshaped rows product of its reshaped arguments, which end
    unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4)
          = shapeCast Cert.KernelIdeal.S5x64x62x375
              (rowsProduct
                (shapeCast Cert.KernelIdeal.S64x128 (m ((c.tc : Thread Cert.KernelIdeal.nD Cert.KernelIdeal.τ).loc Cert.KernelIdeal.main_arg1)) Cert.KernelIdeal.Gen.shapeCasts_S64x1x1x128_S64x128)
                (shapeCast Cert.KernelIdeal.S116250x128 (m ((c.tc : Thread Cert.KernelIdeal.nD Cert.KernelIdeal.τ).loc Cert.KernelIdeal.main_arg0)) Cert.KernelIdeal.Gen.shapeCasts_S1x1x116250x128_S116250x128))
              Cert.KernelIdeal.Gen.shapeCasts_S64x116250_S5x64x62x375
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun r h c =>
    ⟨((h c).2 Cert.KernelIdeal.main_v4 (Pipeline.mem_restRefs_of Cert.KernelIdeal.main_v4 (by decide) (by decide))).trans
        (by rw [Cert.KernelIdeal.Tile.result_eq, Cert.KernelIdeal.Tile.wMat_eq, Cert.KernelIdeal.Tile.xMat_eq]),
      ((h c).2 Cert.KernelIdeal.main_arg0 (Pipeline.mem_restRefs_of Cert.KernelIdeal.main_arg0 (by decide) (by decide))).trans
        (Cert.KernelIdeal.Gen.W_main_arg0 m (Cert.KernelIdeal.Tile.dats m) c),
      ((h c).2 Cert.KernelIdeal.main_arg1 (Pipeline.mem_restRefs_of Cert.KernelIdeal.main_arg1 (by decide) (by decide))).trans
        (Cert.KernelIdeal.Gen.W_main_arg1 m (Cert.KernelIdeal.Tile.dats m) c)⟩)
    (Cert.KernelIdeal.Tile.run_main m ρ)

theorem frame_k : Cert.frame_Kernel := fun m ρ _ => Cert.Kernel.Tile.frame (F := Bits) m ρ

theorem frame_ki : Cert.frame_KernelIdeal := fun m ρ _ => Cert.KernelIdeal.Tile.frame m ρ

theorem frame_r : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are the reshaped rows product of arguments that agree. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v3_eq]
  unfold Cert.ReferenceIdeal.Read.val_main_v3
  rw [Cert.ReferenceIdeal.RowsForm.dot_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
